-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S8x2 : S_.BroadcastsInDim S8x2 (![] : Fin 0 → Fin S8x2.rank)
  reducesTo_S8x2_S_d0_1 : S8x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S100000x64 .f32) (main_arg1 : FVec F S2x64x64 .f32) (main_arg2 : FVec F S8x2 .f32) (main_arg3 : FVec F S64 .f32) (main_arg4 : FVec F S64x64 .f32) (main_arg5 : IVec S1600000 32) (main_arg6 : IVec S1600000 32) (main_arg7 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S8x2 .f32 := Host.absf main_arg2
  let main_cst_2 : FVec F S_ .f32 := constant S_ .f32 0x7F800000#32
  let main_v10 : FVec F S8x2 .f32 := broadcastInDim S8x2 ![] bcast_S_S8x2 main_cst_2
  let main_v11 : IVec S8x2 1 := cmpf .olt main_v9 main_v10
  let main_c_3 : IVec S_ 1 := constantI S_ 1 1#1
  let main_v12 : IVec S_ 1 := (fun x v => Host.reduce IntOp.andi x v reducesTo_S8x2_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S100000x64 : Shape := ⟨2, ![100000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x2 : Shape := ⟨2, ![1600000, 2]⟩
abbrev S8000x64 : Shape := ⟨2, ![8000, 64]⟩
abbrev S8000x2 : Shape := ⟨2, ![8000, 2]⟩
abbrev S1x64x64 : Shape := ⟨3, ![1, 64, 64]⟩
abbrev S8000x1 : Shape := ⟨2, ![8000, 1]⟩
abbrev S1x64 : Shape := ⟨2, ![1, 64]⟩
abbrev S10000x64 : Shape := ⟨2, ![10000, 64]⟩

abbrev nBuf : Space → Nat
  | .hbm => 33
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x64x64, .f32⟩
  | .hbm, ⟨2, _⟩ => ⟨S8x2, .f32⟩
  | .hbm, ⟨3, _⟩ => ⟨S64, .f32⟩
  | .hbm, ⟨4, _⟩ => ⟨S64x64, .f32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x64, .f32⟩
  | .hbm, ⟨32, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x2, .f32⟩
  | .local _ .vmem, ⟨3, _⟩ => ⟨S8000x2, .f32⟩
  | .local _ .vmem, ⟨4, _⟩ => ⟨S2x64x64, .f32⟩
  | .local _ .vmem, ⟨5, _⟩ => ⟨S8000x64, .f32⟩
  | .local _ .vmem, ⟨6, _⟩ => ⟨S8000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S64x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  slices_S8000x2_o0_0_S8000x1 : S8000x2.Slices ![0, 0] S8000x1
  broadcasts_S8000x1_S8000x64 : S8000x1.Broadcasts S8000x64
  inb_S2x64x64_S1x64x64_1_0_0 : ∀ a, (![1, 0, 0] : Fin 3 → Nat) a + S1x64x64.size a ≤ S2x64x64.size a
  slices_S8000x2_o0_1_S8000x1 : S8000x2.Slices ![0, 1] S8000x1
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  gather_S8x2_S1600000x1_S1600000x2_1_0_n_n_0_1_12_wf : GatherDims.WF S8x2 S1600000x1 S1600000x2 [1] [0] [] [0] [] 1 ![1, 2]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x2.size a ≤ S1600000x2.size a
  hwx0_1 : ∀ i : grid0.Coords, EltTy.bits .f32 = 32 ∨ (Rect.block (s := S1600000x2) S8000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x64.size a ≤ S2x64x64.size a
  hwx0_2 : ∀ i : grid0.Coords, EltTy.bits .f32 = 32 ∨ (Rect.block (s := S2x64x64) S2x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1600000x64.size a
  hwx0_3 : ∀ i : grid0.Coords, EltTy.bits .f32 = 32 ∨ (Rect.block (s := S1600000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S8x2_S1600000x1_S1600000x2_1_0_n_n_0_1_12 : GatherDims S8x2 S1600000x1 S1600000x2 where
  offsetDims := [1]
  collapsedSliceDims := [0]
  operandBatchingDims := []
  startIndicesBatchingDims := []
  startIndexMap := [0]
  indexVectorDim := 1
  sliceSizes := ![1, 2]
  wf := gather_S8x2_S1600000x1_S1600000x2_1_0_n_n_0_1_12_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S1600000x2x1 : Shape := ⟨3, ![1600000, 2, 1]⟩
abbrev S1600000x64 : Shape := ⟨2, ![1600000, 64]⟩
abbrev S1600000x1x64 : Shape := ⟨3, ![1600000, 1, 64]⟩
abbrev S1600000x2x64 : Shape := ⟨3, ![1600000, 2, 64]⟩
abbrev S100000x2x64 : Shape := ⟨3, ![100000, 2, 64]⟩
abbrev S100000x128 : Shape := ⟨2, ![100000, 128]⟩
abbrev S128x64 : Shape := ⟨2, ![128, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x64x64, .f32⟩
  | .hbm, ⟨2, _⟩ => ⟨S8x2, .f32⟩
  | .hbm, ⟨3, _⟩ => ⟨S64, .f32⟩
  | .hbm, ⟨4, _⟩ => ⟨S64x64, .f32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x2, .f32⟩
  | .hbm, ⟨17, _⟩ => ⟨S1600000x2x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x1x64, .f32⟩
  | .hbm, ⟨28, _⟩ => ⟨S1600000x2x64, .f32⟩
  | .hbm, ⟨29, _⟩ => ⟨S1600000x2x64, .f32⟩
  | .hbm, ⟨30, _⟩ => ⟨S1600000x2x64, .f32⟩
  | .hbm, ⟨31, _⟩ => ⟨S_, .f32⟩
  | .hbm, ⟨32, _⟩ => ⟨S100000x2x64, .f32⟩
  | .hbm, ⟨33, _⟩ => ⟨S1600000x1, .i32⟩
  | .hbm, ⟨34, _⟩ => ⟨S100000x2x64, .f32⟩
  | .hbm, ⟨35, _⟩ => ⟨S100000x128, .f32⟩
  | .hbm, ⟨36, _⟩ => ⟨S128x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x2_S1600000x2x1_0_1 : S1600000x2.BroadcastsInDim S1600000x2x1 (![0, 1] : Fin 2 → Fin S1600000x2x1.rank)
  bcast_S1600000x64_S1600000x1x64_0_2 : S1600000x64.BroadcastsInDim S1600000x1x64 (![0, 2] : Fin 2 → Fin S1600000x1x64.rank)
  bcast_S1600000x2x1_S1600000x2x64_0_1_2 : S1600000x2x1.BroadcastsInDim S1600000x2x64 (![0, 1, 2] : Fin 3 → Fin S1600000x2x64.rank)
  bcast_S1600000x1x64_S1600000x2x64_0_1_2 : S1600000x1x64.BroadcastsInDim S1600000x2x64 (![0, 1, 2] : Fin 3 → Fin S1600000x2x64.rank)
  bcast_S_S100000x2x64 : S_.BroadcastsInDim S100000x2x64 (![] : Fin 0 → Fin S100000x2x64.rank)
  shapeCasts_S100000x2x64_S100000x128 : S100000x2x64.ShapeCasts S100000x128
  shapeCasts_S2x64x64_S128x64 : S2x64x64.ShapeCasts S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S8x2_S1600000x1_S1600000x2_1_0_n_n_0_1_12_wf : GatherDims.WF S8x2 S1600000x1 S1600000x2 [1] [0] [] [0] [] 1 ![1, 2]
  gather_S100000x64_S1600000x1_S1600000x64_1_0_n_n_0_1_164_wf : GatherDims.WF S100000x64 S1600000x1 S1600000x64 [1] [0] [] [0] [] 1 ![1, 64]
  scatter_S100000x2x64_S1600000x1_S1600000x2x64_12_0_0_1_wf : ScatterDims.WF S100000x2x64 S1600000x1 S1600000x2x64 [1, 2] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S8x2_S1600000x1_S1600000x2_1_0_n_n_0_1_12 : GatherDims S8x2 S1600000x1 S1600000x2 where
  offsetDims := [1]
  collapsedSliceDims := [0]
  operandBatchingDims := []
  startIndicesBatchingDims := []
  startIndexMap := [0]
  indexVectorDim := 1
  sliceSizes := ![1, 2]
  wf := gather_S8x2_S1600000x1_S1600000x2_1_0_n_n_0_1_12_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x2x64_S1600000x1_S1600000x2x64_12_0_0_1 : ScatterDims S100000x2x64 S1600000x1 S1600000x2x64 where
  updateWindowDims := [1, 2]
  insertedWindowDims := [0]
  scatterDimsToOperandDims := [0]
  indexVectorDim := 1
  wf := scatter_S100000x2x64_S1600000x1_S1600000x2x64_12_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result named.

  The program is two kernel launches among host operations.  Every weakly fair execution from a memory with zero counters
  terminates without a fault, and in the final state every unscoped buffer of a core holds the contents the program's last
  boundary gives it: the fold of the host operations and of the two launches' written-back arrays from the launch memory.
  Read at the result buffer this names the result; read at the arguments it says they are unchanged.  The launch is the
  library's theorem for a chain of host stretches and kernel regions, over the generated segments of this program.
-/
import proofs.«172117_j29326036697258_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and the
    eight arguments as launched. -/
theorem run_value : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.MessageBody.lean ====
/-
  The edge-message kernel's block, entry by entry.

  One block holds 8000 edges.  Its inputs are the edges' gathered source rows `x : 8000 × 64`, their two basis
  coefficients `c : 8000 × 2` and the two basis weights `w : 2 × 64 × 64`.  The body forms, for each basis `b`, the
  product `x · w_b` (into a zero accumulator) and scales row `r` of it by `c[r, b]`; the block it stores is the sum of
  the two.  So entry `(r, o)` of the stored block is
      c[r,0] · Σ_d x[r,d] · w[0,d,o]  +  c[r,1] · Σ_d x[r,d] · w[1,d,o].
-/
import proofs.«172117_j29326036697258_2_alg».proof.Proof.Gen.KernelIdeal.Frame
import proofs.«172117_j29326036697258_2_alg».proof.Proof.LibDotCols
import proofs.«172117_j29326036697258_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Message

open Idealize.ShloMosaic Idealize.ShloMosaic.ValueIdx Cert.KernelIdeal Cert.KernelIdeal.Gen

/-- Column `b` of the coefficient block, broadcast along the 64 output columns, reads the coefficient of row `r`. -/
theorem coeff_col (c : FVec Ideal S8000x2 .f32) (b : Fin 2) (off : Fin 2 → Nat) (hoff : off = ![0, b.val])
    (hs : S8000x2.Slices off S8000x1) (r : Fin 8000) (o : Fin 64) :
    broadcastTo S8000x64 (extractStridedSlice S8000x1 off (shapeCast S8000x2 c shapeCasts_S8000x2_S8000x2) hs)
      broadcasts_S8000x1_S8000x64 (ix2 r o) = c (ix2 r b) := by
  subst hoff
  rw [broadcastTo_a1_ab_apply, shapeCast_self]
  refine extractStridedSlice_apply _ c hs _ (ix2 r b) fun a => ?_
  match a with
  | ⟨0, _⟩ => show r.val = 0 + r.val; omega
  | ⟨1, _⟩ => show b.val = b.val + 0; omega

/-- A `1 × 64 × 64` slab cast to `64 × 64` reads, at `(d, o)`, the slab at `(0, d, o)`. -/
theorem slab_cast (w : FVec Ideal S1x64x64 .f32) (d o : Fin 64) :
    shapeCast S64x64 w shapeCasts_S1x64x64_S64x64 (ix2 d o) = w (ix3 (0 : Fin 1) d o) := by
  refine shapeCast_apply w shapeCasts_S1x64x64_S64x64 _ _ ?_
  rw [Shape.rowMajor_val_three, Shape.rowMajor_val_two]
  show (0 * 64 + d.val) * 64 + o.val = d.val * 64 + o.val
  omega

/-- The product of the edge rows with one basis slab, into the zero accumulator, at `(r, o)`. -/
theorem rows_times_slab (x : FVec Ideal S8000x64 .f32) (w : FVec Ideal S1x64x64 .f32) (r : Fin 8000) (o : Fin 64) :
    matmul (F := Ideal) dot_S8000x64_S64x64_S8000x64_1_0_0_1_n_n none (shapeCast S8000x64 x shapeCasts_S8000x64_S8000x64)
      (shapeCast S64x64 w shapeCasts_S1x64x64_S64x64) (constant S8000x64 .f32 0x00000000#32) (ix2 r o)
      = ∑ d : Fin 64, x (ix2 r d) * w (ix3 (0 : Fin 1) d o) := by
  rw [shapeCast_self]
  refine (Cert.Lib.DotCols.matmul_cols_apply _ rfl none x _ r o).trans ?_
  exact Finset.sum_congr rfl fun d _ => by rw [slab_cast]

/-- THE STORED BLOCK AT AN ENTRY: the two coefficient-scaled products, added. -/
theorem pay_apply (x : FVec Ideal S8000x64 .f32) (c : FVec Ideal S8000x2 .f32) (w0 w1 : FVec Ideal S1x64x64 .f32)
    (r : Fin 8000) (o : Fin 64) :
    k0_pay1 (F := Ideal) x c w0 w1 (ix2 r o)
      = c (ix2 r 0) * (∑ d : Fin 64, x (ix2 r d) * w0 (ix3 (0 : Fin 1) d o))
        + c (ix2 r 1) * (∑ d : Fin 64, x (ix2 r d) * w1 (ix3 (0 : Fin 1) d o)) := by
  unfold k0_pay1
  rw [addf_apply, mulf_apply, mulf_apply, rows_times_slab, rows_times_slab,
    coeff_col c 0 ![0, 0] rfl, coeff_col c 1 ![0, 1] rfl]

end Cert.KernelIdeal.Message

end
-- ==== Proof.MessageArray.lean ====
/-
  The edge-message array after the first kernel, as one function of the arrays it was entered with.

  The grid has 200 points; point `t` handles the block of edges `8000·t … 8000·t + 7999` of the gathered source rows, of the
  gathered coefficients and of the message array, and every point sees the whole basis weight.  So the 200 written blocks
  tile the message array, and entry `(e, o)` of it — edge `e = 8000·t + r` — is the block's entry `(r, o)`:
      msg[e, o] = c[e,0] · Σ_d x[e,d] · w[0,d,o] + c[e,1] · Σ_d x[e,d] · w[1,d,o].
-/
import proofs.«172117_j29326036697258_2_alg».proof.Proof.MessageBody

set_option maxRecDepth 16384

noncomputable section

open scoped BigOperators

namespace Cert.KernelIdeal.Message

open Idealize.ShloMosaic Idealize.ShloMosaic.ValueIdx Idealize.ShloMosaic.TcCoe Idealize.SL.Sem
open Idealize.ShloMosaic.Pipeline (Dat Cfg Window)
open Cert.KernelIdeal Cert.KernelIdeal.Gen

/-- One edge's message at output column `o`: its two coefficients against its source row times the two basis weights. -/
def msgAt (x : S1600000x64.Idx → EReal) (c : S1600000x2.Idx → EReal) (w : S2x64x64.Idx → EReal)
    (e : Fin 1600000) (o : Fin 64) : EReal :=
  c (ix2 e (0 : Fin 2)) * (∑ d : Fin 64, x (ix2 e d) * w (ix3 (0 : Fin 2) d o))
    + c (ix2 e (1 : Fin 2)) * (∑ d : Fin 64, x (ix2 e d) * w (ix3 (1 : Fin 2) d o))

/-- The whole message array. -/
def msgOf (x : S1600000x64.Idx → EReal) (c : S1600000x2.Idx → EReal) (w : S2x64x64.Idx → EReal) :
    S1600000x64.Idx → EReal :=
  fun i => msgAt x c w ⟨(i 0).val, (i 0).isLt⟩ ⟨(i 1).val, (i 1).isLt⟩

theorem zeros2 : (![0, 0] : Fin 2 → Nat) = fun _ => 0 := funext fun a => by fin_cases a <;> rfl

/-- The printed index maps over the grid: the three edge-indexed windows sit at block `t` on the edge axis and at block 0
    on the other; the weight window at block 0 on every axis. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The two slabs the body loads from the weight block are its basis 0 and basis 1. -/
theorem slab0_idx (d o : Fin 64) : r0_2.idx (ix3 (0 : Fin 1) d o) = ix3 (0 : Fin 2) d o := by
  funext a; apply Fin.ext
  match a with
  | ⟨0, _⟩ => show 0 + 1 * 0 = 0; omega
  | ⟨1, _⟩ => show 0 + 1 * d.val = d.val; omega
  | ⟨2, _⟩ => show 0 + 1 * o.val = o.val; omega
theorem slab1_idx (d o : Fin 64) : r0_3.idx (ix3 (0 : Fin 1) d o) = ix3 (1 : Fin 2) d o := by
  funext a; apply Fin.ext
  match a with
  | ⟨0, _⟩ => show 1 + 1 * 0 = 1; omega
  | ⟨1, _⟩ => show 0 + 1 * d.val = d.val; omega
  | ⟨2, _⟩ => show 0 + 1 * o.val = o.val; omega

/-- A block's stored entry `(r, o)` is edge `e`'s message, when row `r` of the two edge blocks is edge `e`'s row of the arrays
    and the weight block is the weight array. -/
theorem block_entry (X : S1600000x64.Idx → EReal) (C : S1600000x2.Idx → EReal) (Wt : S2x64x64.Idx → EReal)
    (x : FVec Ideal S8000x64 .f32) (cb : FVec Ideal S8000x2 .f32) (wb : FVec Ideal S2x64x64 .f32)
    (e : Fin 1600000) (r : Fin 8000) (o : Fin 64)
    (hx : ∀ d : Fin 64, x (ix2 r d) = X (ix2 e d)) (hc : ∀ b : Fin 2, cb (ix2 r b) = C (ix2 e b))
    (hw : ∀ (b : Fin 2) (d : Fin 64), wb (ix3 b d o) = Wt (ix3 b d o)) :
    out0_3 (F := Ideal) x cb wb (ix2 r o) = msgAt X C Wt e o := by
  unfold out0_3
  rw [View.canon_unit_zero zeros2, View.ld_unit_zero (S := S8000x64) zeros2, View.ld_unit_zero (S := S8000x2) zeros2]
  refine (pay_apply x cb _ _ r o).trans ?_
  show cb (ix2 r 0) * (∑ d : Fin 64, x (ix2 r d) * wb (r0_2.idx (ix3 (0 : Fin 1) d o)))
      + cb (ix2 r 1) * (∑ d : Fin 64, x (ix2 r d) * wb (r0_3.idx (ix3 (0 : Fin 1) d o))) = _
  unfold msgAt
  rw [hc 0, hc 1]
  refine congrArg₂ (· + ·) (congrArg _ (Finset.sum_congr rfl fun d _ => ?_)) (congrArg _ (Finset.sum_congr rfl fun d _ => ?_))
  · rw [hx d, slab0_idx, hw]
  · rw [hx d, slab1_idx, hw]

variable (V : (c : Dev nD) → (b : Ref sig .tc) → Buf (Elt Ideal) ((c : Thread nD τ).loc b))

/-- WHAT POINT `t` WRITES BACK is block `t` of the message array `msgOf` of the arrays the kernel was entered with. -/
theorem flushed_eq (c : Dev nD) (t : Fin cfg0.N) :
    (dat0 V c).flushed 3 t
      = ((cfg0.win 3).blk t).view.read (Elt Ideal) (msgOf (V c main_v6) (V c main_v13) (V c main_arg1)) := by
  show (cfg0.win 3).cut (grid0.coords t) ((dat0 V c).after 3 t) = _
  rw [after0_3]
  funext j
  obtain ⟨r, o, rfl⟩ : ∃ (r : Fin 8000) (o : Fin 64), j = ix2 r o := ⟨j 0, j 1, eq_ix2 j⟩
  obtain ⟨a0, a1, b0, b1, w0, w1, w2, o0, o1⟩ := index_facts t
  have ht : t.val < 200 := lt_of_lt_of_eq t.isLt N_0
  have hr : r.val < 8000 := r.isLt
  have ho : o.val < 64 := o.isLt
  have he : t.val * 8000 + r.val < 1600000 := by omega
  -- where each block entry the body reads sits in its array
  have hx : ∀ d : Fin 64, ((cfg0.win 0).blk t).view.emb (ix2 r d)
      = ix2 (⟨t.val * 8000 + r.val, he⟩ : Fin 1600000) d := fun d => by
    funext a; apply Fin.ext
    match a with
    | ⟨0, _⟩ => show win0_0.index t (0 : Fin 2) * 8000 + 1 * r.val = t.val * 8000 + r.val; omega
    | ⟨1, _⟩ => show win0_0.index t (1 : Fin 2) * 64 + 1 * d.val = d.val; omega
  have hc : ∀ b : Fin 2, ((cfg0.win 1).blk t).view.emb (ix2 r b)
      = ix2 (⟨t.val * 8000 + r.val, he⟩ : Fin 1600000) b := fun b => by
    funext a; apply Fin.ext
    match a with
    | ⟨0, _⟩ => show win0_1.index t (0 : Fin 2) * 8000 + 1 * r.val = t.val * 8000 + r.val; omega
    | ⟨1, _⟩ => show win0_1.index t (1 : Fin 2) * 2 + 1 * b.val = b.val; omega
  have hw : ∀ (b : Fin 2) (d : Fin 64), ((cfg0.win 2).blk t).view.emb (ix3 b d o) = ix3 b d o := fun b d => by
    funext a; apply Fin.ext
    match a with
    | ⟨0, _⟩ => show win0_2.index t (0 : Fin 3) * 2 + 1 * b.val = b.val; omega
    | ⟨1, _⟩ => show win0_2.index t (1 : Fin 3) * 64 + 1 * d.val = d.val; omega
    | ⟨2, _⟩ => show win0_2.index t (2 : Fin 3) * 64 + 1 * o.val = o.val; omega
  have hout : ((cfg0.win 3).blk t).view.emb (ix2 r o)
      = ix2 (⟨t.val * 8000 + r.val, he⟩ : Fin 1600000) o := by
    funext a; apply Fin.ext
    match a with
    | ⟨0, _⟩ => show win0_3.index t (0 : Fin 2) * 8000 + 1 * r.val = t.val * 8000 + r.val; omega
    | ⟨1, _⟩ => show win0_3.index t (1 : Fin 2) * 64 + 1 * o.val = o.val; omega
  show out0_3 (iblk0 V c 0 t) (iblk0 V c 1 t) (iblk0 V c 2 t) (ix2 r o)
    = msgOf (V c main_v6) (V c main_v13) (V c main_arg1) (((cfg0.win 3).blk t).view.emb (ix2 r o))
  rw [hout]
  exact block_entry (V c main_v6) (V c main_v13) (V c main_arg1) (iblk0 V c 0 t) (iblk0 V c 1 t) (iblk0 V c 2 t)
    ⟨t.val * 8000 + r.val, he⟩ r o
    (fun d => congrArg (V c main_v6) (hx d)) (fun b => congrArg (V c main_v13) (hc b))
    (fun b d => congrArg (V c main_arg1) (hw b d))

/-- An index of the message array is in point `t`'s block iff each coordinate is in the block's range on its axis. -/
theorem mem_blk (t : Fin cfg0.N) (i : S1600000x64.Idx) :
    i ∈ ((cfg0.win 3).blk t).view.set ↔ ∀ a : Fin 2, win0_3.index t a * S8000x64.size a ≤ (i a).val
      ∧ (i a).val < win0_3.index t a * S8000x64.size a + S8000x64.size a := by
  show i ∈ ((View.whole main_v14).slice (win0_3.rect t)).set ↔ _
  rw [View.set_slice_whole, Rect.mem_set_unit]
  exact Iff.rfl

/-- The 200 blocks tile the message array: edge `e` is in block `e / 8000`. -/
theorem cover (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  have hN : (i 0).val / 8000 < cfg0.N := lt_of_lt_of_eq (by omega : (i 0).val / 8000 < 200) N_0.symm
  refine ⟨⟨(i 0).val / 8000, hN⟩, flush0_3 _, ?_⟩
  rw [mem_blk]
  obtain ⟨-, -, -, -, -, -, -, o0, o1⟩ := index_facts ⟨(i 0).val / 8000, hN⟩
  intro a
  match a with
  | ⟨0, _⟩ =>
    show win0_3.index ⟨(i 0).val / 8000, hN⟩ (0 : Fin 2) * 8000 ≤ (i 0).val
      ∧ (i 0).val < win0_3.index ⟨(i 0).val / 8000, hN⟩ (0 : Fin 2) * 8000 + 8000
    rw [o0]; show (i 0).val / 8000 * 8000 ≤ (i 0).val ∧ (i 0).val < (i 0).val / 8000 * 8000 + 8000; omega
  | ⟨1, _⟩ =>
    show win0_3.index ⟨(i 0).val / 8000, hN⟩ (1 : Fin 2) * 64 ≤ (i 1).val
      ∧ (i 1).val < win0_3.index ⟨(i 0).val / 8000, hN⟩ (1 : Fin 2) * 64 + 64
    rw [o1]; omega

/-- THE MESSAGE ARRAY after the first kernel. -/
theorem final (c : Dev nD) :
    (dat0 V c).arrAt 3 cfg0.N = msgOf (V c main_v6) (V c main_v13) (V c main_arg1) :=
  (dat0 V c).arrAt_eq_of_cover 3 (msgOf (V c main_v6) (V c main_v13) (V c main_arg1))
    (fun t _ => flushed_eq V c t) cover

end Cert.KernelIdeal.Message

end
-- ==== Proof.CombineBody.lean ====
/-
  The combine kernel's block, entry by entry.

  One block holds 10000 nodes.  Its inputs are the nodes' aggregated messages `a : 10000 × 64`, their own features
  `x : 10000 × 64`, the self-loop weight `l : 64 × 64` and the bias as one row `β : 1 × 64`.  The body forms `x · l` into
  a zero accumulator, adds it to `a`, and adds the bias row to every row.  So entry `(r, o)` of the stored block is
      (a[r,o] + Σ_d x[r,d] · l[d,o]) + β[0,o].
-/
import proofs.«172117_j29326036697258_2_alg».proof.Proof.Gen.KernelIdeal.Frame
import proofs.«172117_j29326036697258_2_alg».proof.Proof.LibDotCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Combine

open Idealize.ShloMosaic Idealize.ShloMosaic.ValueIdx Cert.KernelIdeal Cert.KernelIdeal.Gen

/-- The bias row broadcast over the 10000 rows reads, at `(r, o)`, the row's entry `o`. -/
theorem bias_rows (β : FVec Ideal S1x64 .f32) (r : Fin 10000) (o : Fin 64) :
    broadcastTo S10000x64 (shapeCast S1x64 β shapeCasts_S1x64_S1x64) broadcasts_S1x64_S10000x64 (ix2 r o)
      = β (ix2 (0 : Fin 1) o) := by
  rw [shapeCast_self, broadcastTo_1b_ab_apply]

/-- THE STORED BLOCK AT AN ENTRY. -/
theorem pay_apply (x : FVec Ideal S10000x64 .f32) (l : FVec Ideal S64x64 .f32) (a : FVec Ideal S10000x64 .f32)
    (β : FVec Ideal S1x64 .f32) (r : Fin 10000) (o : Fin 64) :
    k1_pay1 (F := Ideal) x l a β (ix2 r o)
      = (a (ix2 r o) + ∑ d : Fin 64, x (ix2 r d) * l (ix2 d o)) + β (ix2 (0 : Fin 1) o) := by
  unfold k1_pay1
  rw [addf_apply, addf_apply, bias_rows, shapeCast_self]
  refine congrArg (fun z => (a (ix2 r o) + z) + β (ix2 (0 : Fin 1) o)) ?_
  exact Cert.Lib.DotCols.matmul_cols_apply _ rfl none x l r o

end Cert.KernelIdeal.Combine

end
-- ==== Proof.CombineArray.lean ====
/-
  The result array after the second kernel, as one function of the arrays it was entered with.

  The grid has 10 points; point `t` handles the block of nodes `10000·t … 10000·t + 9999` of the aggregated messages, of the
  features and of the result, and every point sees the whole self-loop weight and the bias row.  So the 10 written blocks tile
  the result, and entry `(n, o)` of it — node `n = 10000·t + r` — is the block's entry `(r, o)`:
      out[n, o] = (agg[n,o] + Σ_d feat[n,d] · l[d,o]) + β[0,o].
-/
import proofs.«172117_j29326036697258_2_alg».proof.Proof.CombineBody

set_option maxRecDepth 16384

noncomputable section

open scoped BigOperators

namespace Cert.KernelIdeal.Combine

open Idealize.ShloMosaic Idealize.ShloMosaic.ValueIdx Idealize.ShloMosaic.TcCoe Idealize.SL.Sem
open Idealize.ShloMosaic.Pipeline (Dat Cfg Window)
open Cert.KernelIdeal Cert.KernelIdeal.Gen

/-- One node's result at output column `o`. -/
def outAt (A : S100000x64.Idx → EReal) (X : S100000x64.Idx → EReal) (L : S64x64.Idx → EReal) (β : S1x64.Idx → EReal)
    (n : Fin 100000) (o : Fin 64) : EReal :=
  (A (ix2 n o) + ∑ d : Fin 64, X (ix2 n d) * L (ix2 d o)) + β (ix2 (0 : Fin 1) o)

/-- The whole result array. -/
def outOf (A : S100000x64.Idx → EReal) (X : S100000x64.Idx → EReal) (L : S64x64.Idx → EReal) (β : S1x64.Idx → EReal) :
    S100000x64.Idx → EReal :=
  fun i => outAt A X L β ⟨(i 0).val, (i 0).isLt⟩ ⟨(i 1).val, (i 1).isLt⟩

theorem zeros2 : (![0, 0] : Fin 2 → Nat) = fun _ => 0 := funext fun a => by fin_cases a <;> rfl

/-- The printed index maps over the grid: the three node-indexed windows sit at block `t` on the node axis and at block 0
    on the other; the self-loop weight and the bias row at block 0 on every axis. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A block's stored entry `(r, o)` is node `n`'s result, when row `r` of the two node blocks is node `n`'s row of the
    arrays and the weight and bias blocks are the weight and bias arrays. -/
theorem block_entry (A X : S100000x64.Idx → EReal) (L : S64x64.Idx → EReal) (β : S1x64.Idx → EReal)
    (a x : FVec Ideal S10000x64 .f32) (l : FVec Ideal S64x64 .f32) (bb : FVec Ideal S1x64 .f32)
    (n : Fin 100000) (r : Fin 10000) (o : Fin 64)
    (ha : a (ix2 r o) = A (ix2 n o)) (hx : ∀ d : Fin 64, x (ix2 r d) = X (ix2 n d))
    (hl : ∀ d : Fin 64, l (ix2 d o) = L (ix2 d o)) (hb : bb (ix2 (0 : Fin 1) o) = β (ix2 (0 : Fin 1) o)) :
    out1_4 (F := Ideal) a x l bb (ix2 r o) = outAt A X L β n o := by
  unfold out1_4
  rw [View.canon_unit_zero zeros2, View.ld_unit_zero (S := S10000x64) zeros2, View.ld_unit_zero (S := S10000x64) zeros2,
    View.ld_unit_zero (S := S64x64) zeros2, View.ld_unit_zero (S := S1x64) zeros2]
  refine (pay_apply x l a bb r o).trans ?_
  unfold outAt
  rw [ha, hb]
  refine congrArg (fun z => (A (ix2 n o) + z) + β (ix2 (0 : Fin 1) o)) (Finset.sum_congr rfl fun d _ => ?_)
  rw [hx d, hl d]

variable (V : (c : Dev nD) → (b : Ref sig .tc) → Buf (Elt Ideal) ((c : Thread nD τ).loc b))

/-- WHAT POINT `t` WRITES BACK is block `t` of the result array `outOf` of the arrays the kernel was entered with. -/
theorem flushed_eq (c : Dev nD) (t : Fin cfg1.N) :
    (dat1 V c).flushed 4 t
      = ((cfg1.win 4).blk t).view.read (Elt Ideal)
          (outOf (V c main_v17) (V c main_arg0) (V c main_arg4) (V c main_v18)) := by
  show (cfg1.win 4).cut (grid1.coords t) ((dat1 V c).after 4 t) = _
  rw [after1_4]
  funext j
  obtain ⟨r, o, rfl⟩ : ∃ (r : Fin 10000) (o : Fin 64), j = ix2 r o := ⟨j 0, j 1, eq_ix2 j⟩
  obtain ⟨a0, a1, b0, b1, l0, l1, s0, s1, o0, o1⟩ := index_facts t
  have ht : t.val < 10 := lt_of_lt_of_eq t.isLt N_1
  have hr : r.val < 10000 := r.isLt
  have ho : o.val < 64 := o.isLt
  have hn : t.val * 10000 + r.val < 100000 := by omega
  have hagg : ((cfg1.win 0).blk t).view.emb (ix2 r o) = ix2 (⟨t.val * 10000 + r.val, hn⟩ : Fin 100000) o := by
    funext a; apply Fin.ext
    match a with
    | ⟨0, _⟩ => show win1_0.index t (0 : Fin 2) * 10000 + 1 * r.val = t.val * 10000 + r.val; omega
    | ⟨1, _⟩ => show win1_0.index t (1 : Fin 2) * 64 + 1 * o.val = o.val; omega
  have hx : ∀ d : Fin 64, ((cfg1.win 1).blk t).view.emb (ix2 r d)
      = ix2 (⟨t.val * 10000 + r.val, hn⟩ : Fin 100000) d := fun d => by
    funext a; apply Fin.ext
    match a with
    | ⟨0, _⟩ => show win1_1.index t (0 : Fin 2) * 10000 + 1 * r.val = t.val * 10000 + r.val; omega
    | ⟨1, _⟩ => show win1_1.index t (1 : Fin 2) * 64 + 1 * d.val = d.val; omega
  have hl : ∀ d : Fin 64, ((cfg1.win 2).blk t).view.emb (ix2 d o) = ix2 d o := fun d => by
    funext a; apply Fin.ext
    match a with
    | ⟨0, _⟩ => show win1_2.index t (0 : Fin 2) * 64 + 1 * d.val = d.val; omega
    | ⟨1, _⟩ => show win1_2.index t (1 : Fin 2) * 64 + 1 * o.val = o.val; omega
  have hb : ((cfg1.win 3).blk t).view.emb (ix2 (0 : Fin 1) o) = ix2 (0 : Fin 1) o := by
    funext a; apply Fin.ext
    match a with
    | ⟨0, _⟩ => show win1_3.index t (0 : Fin 2) * 1 + 1 * 0 = 0; omega
    | ⟨1, _⟩ => show win1_3.index t (1 : Fin 2) * 64 + 1 * o.val = o.val; omega
  have hout : ((cfg1.win 4).blk t).view.emb (ix2 r o) = ix2 (⟨t.val * 10000 + r.val, hn⟩ : Fin 100000) o := by
    funext a; apply Fin.ext
    match a with
    | ⟨0, _⟩ => show win1_4.index t (0 : Fin 2) * 10000 + 1 * r.val = t.val * 10000 + r.val; omega
    | ⟨1, _⟩ => show win1_4.index t (1 : Fin 2) * 64 + 1 * o.val = o.val; omega
  show out1_4 (iblk1 V c 0 t) (iblk1 V c 1 t) (iblk1 V c 2 t) (iblk1 V c 3 t) (ix2 r o)
    = outOf (V c main_v17) (V c main_arg0) (V c main_arg4) (V c main_v18) (((cfg1.win 4).blk t).view.emb (ix2 r o))
  rw [hout]
  exact block_entry (V c main_v17) (V c main_arg0) (V c main_arg4) (V c main_v18)
    (iblk1 V c 0 t) (iblk1 V c 1 t) (iblk1 V c 2 t) (iblk1 V c 3 t) ⟨t.val * 10000 + r.val, hn⟩ r o
    (congrArg (V c main_v17) hagg) (fun d => congrArg (V c main_arg0) (hx d))
    (fun d => congrArg (V c main_arg4) (hl d)) (congrArg (V c main_v18) hb)

/-- An index of the result array is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v19).slice (win1_4.rect t)).set ↔ _
  rw [View.set_slice_whole, Rect.mem_set_unit]
  exact Iff.rfl

/-- The 10 blocks tile the result: node `n` is in block `n / 10000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 10000 < cfg1.N := lt_of_lt_of_eq (by omega : (i 0).val / 10000 < 10) N_1.symm
  refine ⟨⟨(i 0).val / 10000, hN⟩, flush1_4 _, ?_⟩
  rw [mem_blk]
  obtain ⟨-, -, -, -, -, -, -, -, o0, o1⟩ := index_facts ⟨(i 0).val / 10000, hN⟩
  intro a
  match a with
  | ⟨0, _⟩ =>
    show win1_4.index ⟨(i 0).val / 10000, hN⟩ (0 : Fin 2) * 10000 ≤ (i 0).val
      ∧ (i 0).val < win1_4.index ⟨(i 0).val / 10000, hN⟩ (0 : Fin 2) * 10000 + 10000
    rw [o0]; show (i 0).val / 10000 * 10000 ≤ (i 0).val ∧ (i 0).val < (i 0).val / 10000 * 10000 + 10000; omega
  | ⟨1, _⟩ =>
    show win1_4.index ⟨(i 0).val / 10000, hN⟩ (1 : Fin 2) * 64 ≤ (i 1).val
      ∧ (i 1).val < win1_4.index ⟨(i 0).val / 10000, hN⟩ (1 : Fin 2) * 64 + 64
    rw [o1]; omega

/-- THE RESULT ARRAY after the second kernel. -/
theorem final (c : Dev nD) :
    (dat1 V c).arrAt 4 cfg1.N = outOf (V c main_v17) (V c main_arg0) (V c main_arg4) (V c main_v18) :=
  (dat1 V c).arrAt_eq_of_cover 4 (outOf (V c main_v17) (V c main_arg0) (V c main_arg4) (V c main_v18))
    (fun t _ => flushed_eq V c t) cover

end Cert.KernelIdeal.Combine

end
-- ==== Proof.EntryContents.lean ====
/-
  What the two kernels find in their arrays when they are entered.

  Before the first kernel the host gathers, for every edge, its source node's feature row and its relation's two basis
  coefficients: the same two gathers, of the same index arrays, that the reference program makes.  Between the kernels the
  host adds every edge's message row into the row of its destination node (an accumulating scatter into a zero array) and
  views the bias as one row.  The weights, the features and the self-loop weight reach the kernels as launched.
-/
import proofs.«172117_j29326036697258_2_alg».proof.Proof.Gen.KernelIdeal.Frame
import proofs.«172117_j29326036697258_2_alg».proof.Proof.Gen.ReferenceIdeal.Read
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first kernel's edge rows: the reference's gather of the features at the source indices. -/
theorem src_rows (c : Dev nD) :
    V1 m ρ c main_v6 = Cert.ReferenceIdeal.Read.val_main_v14 (F := Ideal)
      (m ((c : Thread nD τ).loc main_arg0)) (m ((c : Thread nD τ).loc main_arg5)) := by
  show StableHlo.after hostOps0 (W0 m ρ c) (Proc.devRef .tc main_v6) = _
  after_results
  rfl

/-- The first kernel's edge coefficients: the reference's gather of the coefficient table at the relation types. -/
theorem edge_coeff (c : Dev nD) :
    V1 m ρ c main_v13 = Cert.ReferenceIdeal.Read.val_main_v6 (F := Ideal)
      (m ((c : Thread nD τ).loc main_arg2)) (m ((c : Thread nD τ).loc main_arg7)) := by
  show StableHlo.after hostOps0 (W0 m ρ c) (Proc.devRef .tc main_v13) = _
  after_results
  rfl

/-- The basis weights reach the first kernel as launched. -/
theorem weights (c : Dev nD) : V1 m ρ c main_arg1 = m ((c : Thread nD τ).loc main_arg1) := by
  show StableHlo.after hostOps0 (W0 m ρ c) (Proc.devRef .tc main_arg1) = _
  after_results

/-- The destination indices reach the host's scatter as launched. -/
theorem dst_kept (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

/-- The second kernel's aggregated messages: every edge's message row added into its destination node's row of a zero
    array — the host's accumulating scatter of the first kernel's result. -/
theorem aggregated (c : Dev nD) :
    V3 m ρ c main_v17
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (m ((c : Thread nD τ).loc main_arg6)))
          ((dat0 (V1 m ρ) c).arrAt 3 cfg0.N) := by
  show StableHlo.after hostOps1 (W2 m ρ c) (Proc.devRef .tc main_v17) = _
  after_results
  rw [dst_kept, W2_arr m ρ c 3]

/-- The bias reaches the second kernel as one row. -/
theorem bias_row (c : Dev nD) :
    V3 m ρ c main_v18 = shapeCast S1x64 (m ((c : Thread nD τ).loc main_arg3)) shapeCasts_S64_S1x64 := by
  show StableHlo.after hostOps1 (W2 m ρ c) (Proc.devRef .tc main_v18) = _
  after_results
  rw [W2_of_ne m ρ c main_arg3 (by decide)]
  show shapeCast S1x64 (StableHlo.after hostOps0 (W0 m ρ c) (Proc.devRef .tc main_arg3)) shapeCasts_S64_S1x64 = _
  after_results

/-- The features and the self-loop weight reach the second kernel as launched. -/
theorem feats (c : Dev nD) : V3 m ρ c main_arg0 = m ((c : Thread nD τ).loc main_arg0) :=
  ((W4_arr m ρ c 1).trans (((dat1 (V3 m ρ) c).arrAt_in 1 rfl _).trans (A_eq1 (V3 m ρ) c 1))).symm.trans
    (W4_main_arg0 m ρ c)
theorem loop_weight (c : Dev nD) : V3 m ρ c main_arg4 = m ((c : Thread nD τ).loc main_arg4) :=
  ((W4_arr m ρ c 2).trans (((dat1 (V3 m ρ) c).arrAt_in 2 rfl _).trans (A_eq1 (V3 m ρ) c 2))).symm.trans
    (W4_main_arg4 m ρ c)

end Cert.KernelIdeal.Entry

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.RefRead.lean ====
import proofs.«172117_j29326036697258_2_alg».proof.Proof.Gen.ReferenceIdeal.Read
import Idealize.ShloMosaic.Lib.ValueIdx
import Idealize.ShloMosaic.PureOps.Ideal.Laws

/-
  The reference program read at one entry.

  The reference computes, per edge `e`, the message `msg[e,b,d] = coeff[etype e, b] · feat[src e, d]`,
  aggregates the messages by destination node into `agg[n,b,d]`, and outputs
  `h[n,o] = Σ_k agg[n, k/64, k%64] · W[k/64, k%64, o] + bias[o] + Σ_d feat[n,d] · loopW[d,o]`:
  the flattened axis `k < 128` of the two reshapes is read back through `(k / 64, k % 64)`.
  Each statement below reads one stage at an index given by literal coordinates; the
  index maps of the reshapes, broadcasts and contractions are computed coordinate by
  coordinate (natural-number division facts).
-/

noncomputable section

namespace Cert.Bridge.RefRead

open Cert.ReferenceIdeal Cert.ReferenceIdeal.Read Idealize.ShloMosaic Idealize.ShloMosaic.ValueIdx

/-! ## The index maps at literal coordinates -/

/-- Row `n`, flattened column `k` of the reshaped aggregate is entry `(n, k / 64, k % 64)`. -/
theorem idx_agg (n : Fin 100000) (o : Fin 64) (k : Fin 128) :
    idx_main_v22 (lidx_main_v24 (ix2 n o) k)
      = ix3 n (⟨k.val / 64, by omega⟩ : Fin 2) (⟨k.val % 64, by omega⟩ : Fin 64) := by
  have hn := n.isLt
  have hk := k.isLt
  funext a
  apply Fin.ext
  match a with
  | ⟨0, _⟩ => show (n.val * 128 + k.val) / 128 = n.val; omega
  | ⟨1, _⟩ => show (n.val * 128 + k.val) / 64 % 2 = k.val / 64; omega
  | ⟨2, _⟩ => show (n.val * 128 + k.val) % 64 = k.val % 64; omega

/-- Flattened row `k`, column `o` of the reshaped weight is entry `(k / 64, k % 64, o)`. -/
theorem idx_wt (n : Fin 100000) (o : Fin 64) (k : Fin 128) :
    idx_main_v23 (ridx_main_v24 (ix2 n o) k)
      = ix3 (⟨k.val / 64, by omega⟩ : Fin 2) (⟨k.val % 64, by omega⟩ : Fin 64) o := by
  have ho := o.isLt
  have hk := k.isLt
  funext a
  apply Fin.ext
  match a with
  | ⟨0, _⟩ => show (k.val * 64 + o.val) / 4096 = k.val / 64; omega
  | ⟨1, _⟩ => show (k.val * 64 + o.val) / 64 % 64 = k.val % 64; omega
  | ⟨2, _⟩ => show (k.val * 64 + o.val) % 64 = o.val; omega

theorem idx_selfL (n : Fin 100000) (o : Fin 64) (d : Fin 64) : lidx_main_v28 (ix2 n o) d = ix2 n d := by
  funext a
  apply Fin.ext
  match a with
  | ⟨0, _⟩ => rfl
  | ⟨1, _⟩ => rfl

theorem idx_selfR (n : Fin 100000) (o : Fin 64) (d : Fin 64) : ridx_main_v28 (ix2 n o) d = ix2 d o := by
  funext a
  apply Fin.ext
  match a with
  | ⟨0, _⟩ => rfl
  | ⟨1, _⟩ => rfl

theorem idx_bias (n : Fin 100000) (o : Fin 64) : idx_main_v25 (idx_main_v26 (ix2 n o)) = ix1 o := by
  funext a
  apply Fin.ext
  match a with
  | ⟨0, _⟩ => rfl

theorem idx_coef (e : Fin 1600000) (b : Fin 2) (d : Fin 64) :
    idx_main_v7 (idx_main_v16 (ix3 e b d)) = ix2 e b := by
  funext a
  apply Fin.ext
  match a with
  | ⟨0, _⟩ => rfl
  | ⟨1, _⟩ => rfl

theorem idx_feat (e : Fin 1600000) (b : Fin 2) (d : Fin 64) :
    idx_main_v15 (idx_main_v17 (ix3 e b d)) = ix2 e d := by
  funext a
  apply Fin.ext
  match a with
  | ⟨0, _⟩ => rfl
  | ⟨1, _⟩ => rfl

theorem idx_dst (e : Fin 1600000) : idx_main_v20 (ix2 e (0 : Fin 1)) = ix1 e := by
  funext a
  apply Fin.ext
  match a with
  | ⟨0, _⟩ => rfl

/-! ## The stages read at an index -/

/-- (1) The output at `(n, o)`: the aggregate contracted with the weight over the flattened
    axis, plus the bias, plus the self-loop contraction. -/
theorem ref_apply (x0 : (⟨S100000x64, .f32⟩ : BufTy).Contents (Elt Ideal)) (x1 : (⟨S2x64x64, .f32⟩ : BufTy).Contents (Elt Ideal)) (x2 : (⟨S8x2, .f32⟩ : BufTy).Contents (Elt Ideal))
    (x3 : (⟨S64, .f32⟩ : BufTy).Contents (Elt Ideal)) (x4 : (⟨S64x64, .f32⟩ : BufTy).Contents (Elt Ideal)) (x5 x6 x7 : (⟨S1600000, .i32⟩ : BufTy).Contents (Elt Ideal))
    (n : Fin 100000) (o : Fin 64) :
    val_main_v29 (F := Ideal) x0 x1 x2 x3 x4 x5 x6 x7 (ix2 n o)
      = ((∑ k : Fin 128,
            val_main_v21 (F := Ideal) x0 x2 x5 x6 x7 (ix3 n ⟨k.val / 64, by omega⟩ ⟨k.val % 64, by omega⟩)
              * x1 (ix3 ⟨k.val / 64, by omega⟩ ⟨k.val % 64, by omega⟩ o))
          + x3 (ix1 o))
        + ∑ d : Fin 64, x0 (ix2 n d) * x4 (ix2 d o) := by
  rw [val_main_v29_apply, val_main_v27_apply, val_main_v24_apply, val_main_v28_apply,
    val_main_v26_apply, val_main_v25_apply, idx_bias]
  rw [Ideal.addf_def, Ideal.addf_def]
  refine congrArg₂ (· + ·) (congrArg₂ (· + ·) (Finset.sum_congr rfl fun k _ => ?_) rfl)
    (Finset.sum_congr rfl fun d _ => ?_)
  · rw [val_main_v22_apply, val_main_v23_apply, idx_agg, idx_wt]
  · rw [idx_selfL, idx_selfR]

/-- (2) The per-edge message at `(e, b, d)`: the edge's `b`-th coefficient times the `d`-th
    feature of its source row. -/
theorem upd_apply (x0 : (⟨S100000x64, .f32⟩ : BufTy).Contents (Elt Ideal)) (x2 : (⟨S8x2, .f32⟩ : BufTy).Contents (Elt Ideal)) (x5 x7 : (⟨S1600000, .i32⟩ : BufTy).Contents (Elt Ideal))
    (e : Fin 1600000) (b : Fin 2) (d : Fin 64) :
    val_main_v18 (F := Ideal) x0 x2 x5 x7 (ix3 e b d)
      = val_main_v6 (F := Ideal) x2 x7 (ix2 e b) * val_main_v14 (F := Ideal) x0 x5 (ix2 e d) := by
  rw [val_main_v18_apply, val_main_v16_apply, val_main_v7_apply, val_main_v17_apply, val_main_v15_apply,
    idx_coef, idx_feat, Ideal.mulf_def]

/-- (3) The aggregate starts from zero everywhere. -/
theorem zero_apply (i : S100000x2x64.Idx) : val_main_v19 (F := Ideal) i = 0 := by
  rw [val_main_v19_apply, val_main_cst_apply]
  exact Ideal.ofBits_zero_f32

/-- (4) The scatter's index array at edge `e` is the destination of edge `e`. -/
theorem dst_apply (x6 : (⟨S1600000, .i32⟩ : BufTy).Contents (Elt Ideal)) (e : Fin 1600000) :
    val_main_v20 (F := Ideal) x6 (ix2 e (0 : Fin 1)) = x6 (ix1 e) := by
  rw [val_main_v20_apply, idx_dst]

end Cert.Bridge.RefRead

end
-- ==== Proof.KernelValue.lean ====
/-
  The kernel program's result, entry by entry, as a function of its arguments.

  Chaining the two kernels' arrays through the host operations between them: the result at `(n, o)` is the aggregated
  message of node `n` at column `o`, plus the self-loop product, plus the bias.  The aggregated message is the sum, over the
  edges whose destination index read as a signed integer is `n`, of the edge's message
      c[e,0] · Σ_d x[e,d] · W[0,d,o] + c[e,1] · Σ_d x[e,d] · W[1,d,o],
  where `x` are the gathered source rows and `c` the gathered coefficients (the reference's own two gathers).
-/
import proofs.«172117_j29326036697258_2_alg».proof.Proof.MessageArray
import proofs.«172117_j29326036697258_2_alg».proof.Proof.CombineArray
import proofs.«172117_j29326036697258_2_alg».proof.Proof.EntryContents
import proofs.«172117_j29326036697258_2_alg».proof.Proof.LibScatterRows
import proofs.«172117_j29326036697258_2_alg».proof.Proof.RefRead

set_option maxRecDepth 16384

noncomputable section

open scoped BigOperators

namespace Cert.KernelIdeal.ResultValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The zero array the host scatters into reads zero. -/
theorem zero_operand (n : Fin 100000) (o : Fin 64) :
    broadcastInDim S100000x64 ![] bcast_S_S100000x64 (constant (F := Ideal) S_ .f32 0x00000000#32) (ix2 n o) = 0 :=
  (broadcastInDim_apply _ bcast_S_S100000x64 _ (ix2 n o) (fun a => a.elim0) (fun a => a.elim0)).trans
    Ideal.ofBits_zero_f32

/-- The destination indices as the scatter reads them: one scalar per edge. -/
theorem dst_read (x6 : IVec S1600000 32) (e : Fin 1600000) :
    broadcastInDim S1600000x1 ![0] bcast_S1600000_S1600000x1_0 x6 (ix2 e (0 : Fin 1)) = x6 (ix1 e) :=
  Cert.Bridge.RefRead.dst_apply x6 e

/-- The bias row reads the bias. -/
theorem bias_read (x3 : S64.Idx → EReal) (o : Fin 64) :
    shapeCast S1x64 x3 shapeCasts_S64_S1x64 (ix2 (0 : Fin 1) o) = x3 (ix1 o) :=
  shapeCast_a_1a_apply x3 shapeCasts_S64_S1x64 (0 : Fin 1) o

/-- The argument arrays on core `c`, as functions of their indices. -/
abbrev feat (c : Dev nD) : S100000x64.Idx → EReal := m ((c : Thread nD τ).loc main_arg0)
abbrev wts (c : Dev nD) : S2x64x64.Idx → EReal := m ((c : Thread nD τ).loc main_arg1)
abbrev coeffs (c : Dev nD) : S8x2.Idx → EReal := m ((c : Thread nD τ).loc main_arg2)
abbrev bias (c : Dev nD) : S64.Idx → EReal := m ((c : Thread nD τ).loc main_arg3)
abbrev loopw (c : Dev nD) : S64x64.Idx → EReal := m ((c : Thread nD τ).loc main_arg4)
abbrev srcs (c : Dev nD) : IVec S1600000 32 := m ((c : Thread nD τ).loc main_arg5)
abbrev dsts (c : Dev nD) : IVec S1600000 32 := m ((c : Thread nD τ).loc main_arg6)
abbrev etys (c : Dev nD) : IVec S1600000 32 := m ((c : Thread nD τ).loc main_arg7)
/-- The gathered source rows and the gathered coefficients (the reference's own two gathers). -/
abbrev rows (c : Dev nD) : S1600000x64.Idx → EReal :=
  Cert.ReferenceIdeal.Read.val_main_v14 (F := Ideal) (feat m c) (srcs m c)
abbrev ecoef (c : Dev nD) : S1600000x2.Idx → EReal :=
  Cert.ReferenceIdeal.Read.val_main_v6 (F := Ideal) (coeffs m c) (etys m c)

/-- The result array is the second kernel's array of the arrays it was entered with. -/
theorem result_eq (c : Dev nD) :
    W4 m ρ c (Proc.devRef .tc main_v19)
      = Combine.outOf (V3 m ρ c main_v17) (V3 m ρ c main_arg0) (V3 m ρ c main_arg4) (V3 m ρ c main_v18) :=
  (W4_arr m ρ c 4).trans (Combine.final (V3 m ρ) c)

/-- The aggregated messages at `(n, o)`: the sum of the messages of the edges that land on node `n`. -/
theorem aggregated_apply (c : Dev nD) (n : Fin 100000) (o : Fin 64) :
    (V3 m ρ c main_v17 : S100000x64.Idx → EReal) (ix2 n o)
      = ∑ e : Fin 1600000, if (dsts m c (ix1 e)).toInt = (n.val : ℤ) then
          Message.msgAt (rows m c) (ecoef m c) (wts m c) e o else 0 := by
  rw [Entry.aggregated, Message.final (V1 m ρ) c, Entry.src_rows, Entry.edge_coeff, Entry.weights]
  refine (ScatterRows.scatterAdd_rows2_apply_of_dims scatter_S100000x64_S1600000x1_S1600000x64_1_0_0_1
    rfl rfl rfl rfl _ _ _ n o).trans ?_
  rw [zero_operand, zero_add]
  refine Finset.sum_congr rfl fun e _ => ?_
  rw [dst_read]
  rfl

/-- THE KERNEL PROGRAM'S RESULT AT `(n, o)`: (edge sum + self-loop sum) + bias. -/
theorem result_apply (c : Dev nD) (n : Fin 100000) (o : Fin 64) :
    (W4 m ρ c (Proc.devRef .tc main_v19) : S100000x64.Idx → EReal) (ix2 n o)
      = ((∑ e : Fin 1600000, if (dsts m c (ix1 e)).toInt = (n.val : ℤ) then
            (ecoef m c (ix2 e (0 : Fin 2)) * (∑ d : Fin 64, rows m c (ix2 e d) * wts m c (ix3 (0 : Fin 2) d o))
              + ecoef m c (ix2 e (1 : Fin 2)) * (∑ d : Fin 64, rows m c (ix2 e d) * wts m c (ix3 (1 : Fin 2) d o)))
            else 0)
          + ∑ d : Fin 64, feat m c (ix2 n d) * loopw m c (ix2 d o))
        + bias m c (ix1 o) := by
  refine (congrFun (result_eq m ρ c) (ix2 n o)).trans ?_
  show Combine.outAt (V3 m ρ c main_v17) (V3 m ρ c main_arg0) (V3 m ρ c main_arg4) (V3 m ρ c main_v18) n o = _
  unfold Combine.outAt
  rw [aggregated_apply, Entry.feats, Entry.loop_weight, Entry.bias_row, bias_read]
  rfl

end Cert.KernelIdeal.ResultValue

end
-- ==== Proof.BasisLaw.lean ====
/-
  Pure algebra on the extended reals with REAL (finite) entries: the basis
  decomposition law of a relational graph convolution.

  Per edge `e` there are two real coefficients `C e 0, C e 1` and a real feature
  row `Fs e d` (`d < 64`); `W b d` is a real weight (`b < 2`, `d < 64`).  Summing the
  per-edge outer products `c ⊗ f` over the selected edges and THEN contracting the
  flattened `(b, d)` axis of length `128 = 2 · 64` with `W` equals summing over the
  selected edges the per-edge combination `Σ_b c_b · (f · W_b)`.

  Over `EReal` multiplication does not distribute over addition in general
  (`⊤ + ⊥`), so the law is proved for coerced reals: every coercion is pushed
  outward, and what remains is the same identity over `ℝ`, a commutative ring.
-/
import Mathlib.Data.EReal.Basic
import Mathlib.Data.EReal.Operations
import Mathlib.Algebra.BigOperators.Fin
import Mathlib.Algebra.BigOperators.Ring.Finset
import Mathlib.Logic.Equiv.Fin.Basic
import Mathlib.Tactic.Ring
import Idealize.ShloMosaic.PureOps.Ideal

noncomputable section

namespace Cert.Bridge.BasisLaw

open Finset

/-- The coercion `ℝ → EReal` commutes with finite sums (over a finset). -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion `ℝ → EReal` commutes with finite sums (over a whole finite type). -/
theorem coe_sum_univ {ι : Type*} [Fintype ι] (f : ι → ℝ) :
    ((∑ i, f i : ℝ) : EReal) = ∑ i, ((f i : ℝ) : EReal) :=
  coe_sum Finset.univ f

/-- A selection `if p then ↑a else 0` of a coerced real is the coercion of the real selection. -/
theorem coe_ite_zero (p : Prop) [Decidable p] (a : ℝ) :
    (if p then ((a : ℝ) : EReal) else 0) = (((if p then a else 0 : ℝ)) : EReal) := by
  split_ifs <;> simp

/-- Reading a sum over the flattened axis `k < 128` through `(k / 64, k % 64)` is the
    double sum over `b < 2`, `d < 64`: `(b, d) ↦ d + 64 · b` is a bijection. -/
theorem sum_divmod (g : Fin 2 → Fin 64 → ℝ)
    (h1 : ∀ k : Fin 128, k.val / 64 < 2) (h2 : ∀ k : Fin 128, k.val % 64 < 64) :
    (∑ k : Fin 128, g ⟨k.val / 64, h1 k⟩ ⟨k.val % 64, h2 k⟩) = ∑ b : Fin 2, ∑ d : Fin 64, g b d := by
  rw [← Fintype.sum_prod_type']
  symm
  refine Fintype.sum_equiv (finProdFinEquiv : Fin 2 × Fin 64 ≃ Fin 128) _ _ ?_
  rintro ⟨b, d⟩
  have hb : (d.val + 64 * b.val) / 64 = b.val := by have := d.isLt; omega
  have hd : (d.val + 64 * b.val) % 64 = d.val := by have := d.isLt; omega
  congr 1
  · exact Fin.ext hb.symm
  · exact Fin.ext hd.symm

/-- One basis slot: contracting the selected sum of `c_b · f` with `W_b` is the selected sum of
    `c_b · (f · W_b)`. -/
theorem slot_real {E : ℕ} (P : Fin E → Prop) [DecidablePred P]
    (c : Fin E → ℝ) (Fs : Fin E → Fin 64 → ℝ) (w : Fin 64 → ℝ) :
    (∑ d : Fin 64, (∑ e : Fin E, if P e then c e * Fs e d else 0) * w d)
      = ∑ e : Fin E, if P e then c e * (∑ d : Fin 64, Fs e d * w d) else 0 := by
  simp_rw [Finset.sum_mul]
  rw [Finset.sum_comm]
  refine Finset.sum_congr rfl fun e _ => ?_
  split_ifs
  · rw [Finset.mul_sum]
    refine Finset.sum_congr rfl fun d _ => ?_
    ring
  · simp

/-- The basis law over `ℝ`. -/
theorem basis_fold_real {E : ℕ} (P : Fin E → Prop) [DecidablePred P]
    (C : Fin E → Fin 2 → ℝ) (Fs : Fin E → Fin 64 → ℝ) (W : Fin 2 → Fin 64 → ℝ)
    (h1 : ∀ k : Fin 128, k.val / 64 < 2) (h2 : ∀ k : Fin 128, k.val % 64 < 64) :
    (∑ k : Fin 128, (∑ e : Fin E, if P e then C e ⟨k.val / 64, h1 k⟩ * Fs e ⟨k.val % 64, h2 k⟩ else 0)
        * W ⟨k.val / 64, h1 k⟩ ⟨k.val % 64, h2 k⟩)
      = ∑ e : Fin E, if P e then C e 0 * (∑ d : Fin 64, Fs e d * W 0 d)
          + C e 1 * (∑ d : Fin 64, Fs e d * W 1 d) else 0 := by
  rw [sum_divmod (fun b d => (∑ e : Fin E, if P e then C e b * Fs e d else 0) * W b d) h1 h2]
  rw [Fin.sum_univ_two]
  rw [slot_real P (fun e => C e 0) Fs (W 0), slot_real P (fun e => C e 1) Fs (W 1)]
  rw [← Finset.sum_add_distrib]
  refine Finset.sum_congr rfl fun e _ => ?_
  split_ifs <;> simp

/-- The basis law over `EReal`, every entry a coerced real. -/
theorem basis_fold {E : ℕ} (P : Fin E → Prop) [DecidablePred P]
    (C : Fin E → Fin 2 → ℝ) (Fs : Fin E → Fin 64 → ℝ) (W : Fin 2 → Fin 64 → ℝ) :
    (∑ k : Fin 128,
        (∑ e : Fin E, if P e then ((C e ⟨k.val / 64, by omega⟩ : ℝ) : EReal)
            * ((Fs e ⟨k.val % 64, by omega⟩ : ℝ) : EReal) else 0)
          * ((W ⟨k.val / 64, by omega⟩ ⟨k.val % 64, by omega⟩ : ℝ) : EReal))
      = ∑ e : Fin E, if P e then
          ((C e 0 : ℝ) : EReal) * (∑ d : Fin 64, ((Fs e d : ℝ) : EReal) * ((W 0 d : ℝ) : EReal))
            + ((C e 1 : ℝ) : EReal) * (∑ d : Fin 64, ((Fs e d : ℝ) : EReal) * ((W 1 d : ℝ) : EReal))
        else 0 := by
  simp only [← EReal.coe_mul, ← coe_sum_univ, ← EReal.coe_add, coe_ite_zero]
  rw [EReal.coe_eq_coe_iff]
  exact basis_fold_real P C Fs W (fun k => by omega) (fun k => by omega)

end Cert.Bridge.BasisLaw

end
-- ==== Proof.RefValue.lean ====
import proofs.«172117_j29326036697258_2_alg».proof.Proof.RefRead
import proofs.«172117_j29326036697258_2_alg».proof.Proof.BasisLaw
import proofs.«172117_j29326036697258_2_alg».proof.Proof.LibScatterRows

/-
  The reference's entry rewritten as a sum over edges.

  The reference aggregates the per-edge messages `coeff[e,b] · feat[e,d]` by destination and
  then contracts the flattened `(b, d)` axis with the weight.  With finite (real) features,
  weights and coefficients the contraction distributes over the aggregation, so the entry
  `(n, o)` is the sum, over the edges `e` whose destination is `n`, of
  `Σ_b coeff[e,b] · (Σ_d feat[e,d] · W[b,d,o])`, plus the self-loop contraction, plus the bias.
  A gather of a real array is a real array (each of its entries is an entry of the operand).
-/

noncomputable section

namespace Cert.Bridge.RefValue

open Cert.ReferenceIdeal Cert.ReferenceIdeal.Read Idealize.ShloMosaic Idealize.ShloMosaic.ValueIdx

/-- The aggregate at `(n, b, d)`: the sum of the messages `(e, b, d)` over the edges `e` whose
    destination, read signed, is `n`. -/
theorem agg_apply (x0 : (⟨S100000x64, .f32⟩ : BufTy).Contents (Elt Ideal)) (x2 : (⟨S8x2, .f32⟩ : BufTy).Contents (Elt Ideal)) (x5 x6 x7 : (⟨S1600000, .i32⟩ : BufTy).Contents (Elt Ideal))
    (n : Fin 100000) (b : Fin 2) (d : Fin 64) :
    val_main_v21 (F := Ideal) x0 x2 x5 x6 x7 (ix3 n b d)
      = ∑ e : Fin 1600000, if (x6 (ix1 e)).toInt = (n.val : ℤ) then
          val_main_v6 (F := Ideal) x2 x7 (ix2 e b) * val_main_v14 (F := Ideal) x0 x5 (ix2 e d) else 0 := by
  unfold val_main_v21
  refine (ScatterRows.scatterAdd_rows3_apply_of_dims
    scatter_S100000x2x64_S1600000x1_S1600000x2x64_12_0_0_1 rfl rfl rfl rfl _ _ _ n b d).trans ?_
  rw [RefRead.zero_apply, zero_add]
  refine Finset.sum_congr rfl fun e _ => ?_
  rw [RefRead.dst_apply, RefRead.upd_apply]

/-- THE REFERENCE'S ENTRY `(n, o)` in the per-edge arrangement: (edge sum + self-loop sum) + bias. -/
theorem ref_value (x0 : (⟨S100000x64, .f32⟩ : BufTy).Contents (Elt Ideal)) (x1 : (⟨S2x64x64, .f32⟩ : BufTy).Contents (Elt Ideal)) (x2 : (⟨S8x2, .f32⟩ : BufTy).Contents (Elt Ideal))
    (x3 : (⟨S64, .f32⟩ : BufTy).Contents (Elt Ideal)) (x4 : (⟨S64x64, .f32⟩ : BufTy).Contents (Elt Ideal)) (x5 x6 x7 : (⟨S1600000, .i32⟩ : BufTy).Contents (Elt Ideal))
    (h0 : ∃ f : S100000x64.Idx → ℝ, x0 = fun i => ((f i : ℝ) : EReal))
    (h1 : ∃ w : S2x64x64.Idx → ℝ, x1 = fun i => ((w i : ℝ) : EReal))
    (h2 : ∃ k : S8x2.Idx → ℝ, x2 = fun i => ((k i : ℝ) : EReal))
    (n : Fin 100000) (o : Fin 64) :
    val_main_v29 (F := Ideal) x0 x1 x2 x3 x4 x5 x6 x7 (ix2 n o)
      = ((∑ e : Fin 1600000, if (x6 (ix1 e)).toInt = (n.val : ℤ) then
            (val_main_v6 (F := Ideal) x2 x7 (ix2 e (0 : Fin 2))
                * (∑ d : Fin 64, val_main_v14 (F := Ideal) x0 x5 (ix2 e d) * x1 (ix3 (0 : Fin 2) d o))
              + val_main_v6 (F := Ideal) x2 x7 (ix2 e (1 : Fin 2))
                * (∑ d : Fin 64, val_main_v14 (F := Ideal) x0 x5 (ix2 e d) * x1 (ix3 (1 : Fin 2) d o)))
            else 0)
          + ∑ d : Fin 64, x0 (ix2 n d) * x4 (ix2 d o))
        + x3 (ix1 o) := by
  -- the gathered coefficients, the gathered source rows and the weight's column o are real
  obtain ⟨C, hC⟩ : ∃ C : Fin 1600000 → Fin 2 → ℝ,
      ∀ e b, val_main_v6 (F := Ideal) x2 x7 (ix2 e b) = ((C e b : ℝ) : EReal) := by
    obtain ⟨c, rfl⟩ := h2
    exact ⟨fun e b => c (gather_S8x2_S1600000x1_S1600000x2_1_0_n_n_0_1_12.operandIdx (ix2 e b)
      (val_main_v5 (F := Ideal) x7)), fun _ _ => rfl⟩
  obtain ⟨Fs, hFs⟩ : ∃ Fs : Fin 1600000 → Fin 64 → ℝ,
      ∀ e d, val_main_v14 (F := Ideal) x0 x5 (ix2 e d) = ((Fs e d : ℝ) : EReal) := by
    obtain ⟨f, rfl⟩ := h0
    exact ⟨fun e d => f (gather_S100000x64_S1600000x1_S1600000x64_1_0_n_n_0_1_164.operandIdx (ix2 e d)
      (val_main_v13 (F := Ideal) x5)), fun _ _ => rfl⟩
  obtain ⟨W, hW⟩ : ∃ W : Fin 2 → Fin 64 → ℝ, ∀ b d, x1 (ix3 b d o) = ((W b d : ℝ) : EReal) := by
    obtain ⟨w, rfl⟩ := h1
    exact ⟨fun b d => w (ix3 b d o), fun _ _ => rfl⟩
  refine (RefRead.ref_apply x0 x1 x2 x3 x4 x5 x6 x7 n o).trans ((add_right_comm _ _ _).trans ?_)
  refine congrArg₂ (· + ·) (congrArg₂ (· + ·) ?_ rfl) rfl
  simp only [agg_apply, hC, hFs, hW]
  exact BasisLaw.basis_fold (fun e => (x6 (ix1 e)).toInt = (n.val : ℤ)) C Fs W

end Cert.Bridge.RefValue

end
-- ==== Proof.FiniteArgs.lean ====
import proofs.«172117_j29326036697258_2_alg».proof.Defs
import proofs.«172117_j29326036697258_2_alg».proof.Proof.Gen.Pre_finite_inputs
import Idealize.ShloMosaic.Lib.ReduceAll
import Idealize.ShloMosaic.Lib.ValueIdx

/-
  From the certificate's precondition to real witnesses.  The precondition says that the
  printed predicate — the conjunction of five tests `all(|x| < +∞)`, one per float argument —
  is all ones.  Read back at its one index: each conjunct is 1, so each `all` is 1, so every
  element `x` of each float argument satisfies `max x (-x) < ⊤` in the extended reals; such an
  `x` is neither `⊥` nor `⊤`, hence the coercion of a real.  Choosing that real at every index
  gives, for each argument, a real-valued array whose coercion the argument is.
-/

noncomputable section

namespace Cert.Bridge.Finite

open Idealize.ShloMosaic Idealize.SL.Sem

/-- The rank-0 shape has exactly one index. -/
instance : Subsingleton Cert.Pre_finite_inputs.S_.Idx := ⟨fun a b => funext fun d => d.elim0⟩

/-- The f32 pattern `0x7F800000` (all-ones exponent, zero fraction, sign clear) denotes `+∞`. -/
theorem ofBits_inf : Ideal.ofBits .f32 0x7F800000#32 = (⊤ : EReal) := by
  simp [Ideal.ofBits, Ideal.ieee]

/-- An extended real whose absolute value `max x (-x)` lies strictly below `+∞` is a coerced real. -/
theorem real_of_abs_lt_top (x : EReal) (h : max x (-x) < ⊤) : ∃ r : ℝ, x = (r : EReal) := by
  induction x using EReal.rec with
  | bot => simp at h
  | coe r => exact ⟨r, rfl⟩
  | top => simp at h

/-- The element test `|x| < +∞` of the printed predicate, read back. -/
theorem real_of_test (x : Ideal .f32)
    (h : FloatOps.cmpf CmpFPredicate.olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  apply real_of_abs_lt_top
  by_contra hn
  simp [Ideal.cmp, hn] at h'

/-- One `all(|x| < +∞)` of the printed predicate that is 1: the array is a coerced real array. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∃ f : s.Idx → ℝ, x = fun i => ((f i : ℝ) : EReal) := by
  have hre : ∀ i, ∃ r : ℝ, x i = (r : EReal) := fun i =>
    real_of_test (x i) (Host.reduce_andi_all _ _ hr hu ValueIdx.ix0 e i)
  choose f hf using hre
  exact ⟨f, funext hf⟩

/-- The precondition gives real witnesses for the first three (float) arguments, on every device. -/
theorem reals_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∃ f : Cert.KernelIdeal.S100000x64.Idx → ℝ,
        m ((c.tc : Thread Cert.KernelIdeal.nD Cert.KernelIdeal.τ).loc Cert.KernelIdeal.main_arg0)
          = fun i => ((f i : ℝ) : EReal))
    ∧ (∃ w : Cert.KernelIdeal.S2x64x64.Idx → ℝ,
        m ((c.tc : Thread Cert.KernelIdeal.nD Cert.KernelIdeal.τ).loc Cert.KernelIdeal.main_arg1)
          = fun i => ((w i : ℝ) : EReal))
    ∧ (∃ k : Cert.KernelIdeal.S8x2.Idx → ℝ,
        m ((c.tc : Thread Cert.KernelIdeal.nD Cert.KernelIdeal.τ).loc Cert.KernelIdeal.main_arg2)
          = fun i => ((k i : ℝ) : EReal)) := by
  have e := congrFun (h c) ValueIdx.ix0
  unfold Cert.Pre_finite_inputs.fn Cert.Pre_finite_inputs.fn_part1 at e
  simp only [andi, IntOp.andi_eq_one] at e
  obtain ⟨⟨⟨⟨e0, e1⟩, e2⟩, -⟩, -⟩ := e
  exact ⟨reals_of_all _ _ _ _ e0, reals_of_all _ _ _ _ e1, reals_of_all _ _ _ _ e2⟩

end Cert.Bridge.Finite

end
-- ==== Proof.Bridge.lean ====
/-
  The two programs' results are one array.

  Both are, at entry `(n, o)`: the sum over the edges whose destination is `n` of the edge's coefficient-weighted products of
  its source row with the two basis weights, plus the node's own row times the self-loop weight, plus the bias.  The kernel
  program computes it in this arrangement.  The reference aggregates the outer products of coefficients and source rows
  first and contracts with the flattened weights afterwards; the two agree because multiplication distributes over the
  finite sums of REAL numbers — which is where the precondition (finite features, weights and coefficients) is used.
-/
import proofs.«172117_j29326036697258_2_alg».proof.Proof.KernelValue
import proofs.«172117_j29326036697258_2_alg».proof.Proof.RefValue
import proofs.«172117_j29326036697258_2_alg».proof.Proof.FiniteArgs

set_option maxRecDepth 16384

noncomputable section

namespace Cert.Bridge

open Idealize.ShloMosaic Idealize.ShloMosaic.ValueIdx Idealize.ShloMosaic.TcCoe Idealize.SL.Sem
open Cert.KernelIdeal Cert.KernelIdeal.Gen

/-- Under the precondition, the reference's result term at the kernel program's arguments is the kernel program's result. -/
theorem value_eq [hP : Cert.Pre_finite_inputs.Facts] (m : (ℓ : Loc nD τ sig) → Buf (Elt Ideal) ℓ) (ρ : Dev nD → PrngReg)
    (hpre : Cert.Pre_KernelIdeal m) (c : Dev nD) :
    Cert.ReferenceIdeal.Read.val_main_v29 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
      = W4 m ρ c (Proc.devRef .tc main_v19) := by
  obtain ⟨h0, h1, h2⟩ := Finite.reals_of_pre m hpre c
  funext i
  obtain ⟨n, o, rfl⟩ : ∃ (n : Fin 100000) (o : Fin 64), i = ix2 n o := ⟨i 0, i 1, eq_ix2 i⟩
  exact (RefValue.ref_value _ _ _ _ _ _ _ _ h0 h1 h2 n o).trans (ResultValue.result_apply m ρ c n o).symm

end Cert.Bridge

end
-- ==== Proof.lean ====
/-
  A relational graph convolution with two basis weights, as two tiled kernels among host gathers and a host scatter-add,
  against its plain reference.

  For every node `n` and output column `o` both programs compute, over the extended reals,
      Σ_{e : dst e = n} ( c[e,0] · Σ_d x[e,d] · W[0,d,o] + c[e,1] · Σ_d x[e,d] · W[1,d,o] )  +  Σ_d feat[n,d] · L[d,o]  +  bias[o],
  where `x[e,·]` is the feature row of edge `e`'s source and `c[e,·]` the coefficients of its relation type.  The kernel program
  forms each edge's message in a first kernel, lets the host add the messages into their destination rows, and adds the
  self-loop product and the bias in a second kernel.  The reference adds the outer products `c[e,b] · x[e,d]` into their
  destination rows first and contracts the flattened `(b, d)` axis with the weights afterwards.  With finite inputs every
  quantity is a real number and the two arrangements agree by distributivity.

  The three frames are the generated frame proofs (the reference's is its generated run with the result dropped); the
  idealization rewrote nothing, so what it preserves is trivial; the value claim pairs the kernel program's run, its result
  named, with the reference's generated run.
-/
import proofs.«172117_j29326036697258_2_alg».proof.Defs
import proofs.«172117_j29326036697258_2_alg».proof.Proof.Gen.Kernel
import proofs.«172117_j29326036697258_2_alg».proof.Proof.Gen.Kernel.Frame
import proofs.«172117_j29326036697258_2_alg».proof.Proof.Gen.KernelIdeal
import proofs.«172117_j29326036697258_2_alg».proof.Proof.Gen.KernelIdeal.Frame
import proofs.«172117_j29326036697258_2_alg».proof.Proof.Gen.ReferenceIdeal
import proofs.«172117_j29326036697258_2_alg».proof.Proof.Gen.ReferenceIdeal.Run
import proofs.«172117_j29326036697258_2_alg».proof.Proof.Gen.ReferenceIdeal.Read
import proofs.«172117_j29326036697258_2_alg».proof.Proof.Gen.Pre_finite_inputs
import proofs.«172117_j29326036697258_2_alg».proof.Proof.KernelRun
import proofs.«172117_j29326036697258_2_alg».proof.Proof.Bridge
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hRI : Cert.ReferenceIdeal.Facts]
  [hP : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and the reference's result is the kernel program's. -/
theorem algebraic : Cert.algebraic_KernelIdeal_ReferenceIdeal := by
  intro m ρ m' ρ' hpre hagree
  refine ⟨fun c => Cert.KernelIdeal.Gen.W4 m ρ c (Proc.devRef .tc Cert.KernelIdeal.main_v19),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v29_eq, a0, a1, a2, a3, a4, a5, a6, a7]
  exact Cert.Bridge.value_eq m ρ hpre c

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
